-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v38) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x6 : Shape := ⟨2, ![64, 6]⟩
abbrev S64x512x512 : Shape := ⟨3, ![64, 512, 512]⟩
abbrev S_ : Shape := ⟨0, ![]⟩

class Facts : Prop where
  bcast_S_S64x6 : S_.BroadcastsInDim S64x6 (![] : Fin 0 → Fin S64x6.rank)
  reducesTo_S64x6_S_d0_1 : S64x6.ReducesTo [0, 1] S_
  h_S_ : 0 < S_.numel

variable [Facts]

def fn {F : FTy → Type} [FloatOps F] (main_arg0 : FVec F S64x6 .f32) (main_arg1 : IVec S64x512x512 32) : IVec S_ 1 :=
  let main_v0 : FVec F S64x6 .f32 := Host.absf main_arg0
  let main_cst : FVec F S_ .f32 := constant S_ .f32 0x7F800000#32
  let main_v1 : FVec F S64x6 .f32 := broadcastInDim S64x6 ![] bcast_S_S64x6 main_cst
  let main_v2 : IVec S64x6 1 := cmpf .olt main_v0 main_v1
  let main_c : IVec S_ 1 := constantI S_ 1 1#1
  let main_v3 : IVec S_ 1 := (fun x v => Host.reduce IntOp.andi x v reducesTo_S64x6_S_d0_1 h_S_) main_v2 main_c
  main_v3
-- ==== Kernel.lean ====
abbrev S64x6 : Shape := ⟨2, ![64, 6]⟩
abbrev S64x512x512 : Shape := ⟨3, ![64, 512, 512]⟩
abbrev S64x262144 : Shape := ⟨2, ![64, 262144]⟩
abbrev S8x262144 : Shape := ⟨2, ![8, 262144]⟩
abbrev S8x6 : Shape := ⟨2, ![8, 6]⟩
abbrev S8x1 : Shape := ⟨2, ![8, 1]⟩
abbrev S8x32768 : Shape := ⟨2, ![8, 32768]⟩
abbrev S8x16384 : Shape := ⟨2, ![8, 16384]⟩
abbrev S8x8192 : Shape := ⟨2, ![8, 8192]⟩
abbrev S8x4096 : Shape := ⟨2, ![8, 4096]⟩
abbrev S8x2048 : Shape := ⟨2, ![8, 2048]⟩
abbrev S8x1024 : Shape := ⟨2, ![8, 1024]⟩
abbrev S8x512 : Shape := ⟨2, ![8, 512]⟩
abbrev S8x256 : Shape := ⟨2, ![8, 256]⟩
abbrev S8x128 : Shape := ⟨2, ![8, 128]⟩
abbrev S8x64 : Shape := ⟨2, ![8, 64]⟩
abbrev S8x32 : Shape := ⟨2, ![8, 32]⟩
abbrev S8x16 : Shape := ⟨2, ![8, 16]⟩
abbrev S8x8 : Shape := ⟨2, ![8, 8]⟩
abbrev S8x4 : Shape := ⟨2, ![8, 4]⟩
abbrev S8x2 : Shape := ⟨2, ![8, 2]⟩
abbrev S_ : Shape := ⟨0, ![]⟩

abbrev nBuf : Space → Nat
  | .hbm => 26
  | .vmem => 5
  | .smem => 0
  | _ => 0

abbrev bufTy : (tb : Table) → Fin (tcTables nBuf tb) → BufTy
  | .hbm, ⟨0, _⟩ => ⟨S64x6, .f32⟩
  | .hbm, ⟨1, _⟩ => ⟨S64x512x512, .i32⟩
  | .hbm, ⟨2, _⟩ => ⟨S64x262144, .i32⟩
  | .hbm, ⟨3, _⟩ => ⟨S64x6, .f32⟩
  | .hbm, ⟨4, _⟩ => ⟨S64x6, .f32⟩
  | .hbm, ⟨5, _⟩ => ⟨S_, .f32⟩
  | .hbm, ⟨6, _⟩ => ⟨S_, .f32⟩
  | .hbm, ⟨7, _⟩ => ⟨S64x6, .f32⟩
  | .hbm, ⟨8, _⟩ => ⟨S64x6, .f32⟩
  | .hbm, ⟨9, _⟩ => ⟨S64x6, .f32⟩
  | .hbm, ⟨10, _⟩ => ⟨S64x6, .f32⟩
  | .hbm, ⟨11, _⟩ => ⟨S_, .f32⟩
  | .hbm, ⟨12, _⟩ => ⟨S_, .f32⟩
  | .hbm, ⟨13, _⟩ => ⟨S64x6, .f32⟩
  | .hbm, ⟨14, _⟩ => ⟨S64x6, .f32⟩
  | .hbm, ⟨15, _⟩ => ⟨S64x6, .f32⟩
  | .hbm, ⟨16, _⟩ => ⟨S_, .f32⟩
  | .hbm, ⟨17, _⟩ => ⟨S64x6, .f32⟩
  | .hbm, ⟨18, _⟩ => ⟨S64x6, .f32⟩
  | .hbm, ⟨19, _⟩ => ⟨S64x6, .f32⟩
  | .hbm, ⟨20, _⟩ => ⟨S64x6, .f32⟩
  | .hbm, ⟨21, _⟩ => ⟨S64x6, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .local _ .vmem, ⟨0, _⟩ => ⟨S8x262144, .i32⟩
  | .local _ .vmem, ⟨1, _⟩ => ⟨S8x262144, .i32⟩
  | .local _ .vmem, ⟨2, _⟩ => ⟨S8x6, .f32⟩
  | .local _ .vmem, ⟨3, _⟩ => ⟨S8x6, .f32⟩
  | .local _ .vmem, ⟨4, _⟩ => ⟨S8x1, .i32⟩
  | _, _ => ⟨S64x6, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_call0_v0 : Ref sig .tc := ⟨.hbm, 6, rfl⟩
abbrev main_call0_v1 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_call1_v0 : Ref sig .tc := ⟨.hbm, 12, rfl⟩
abbrev main_call1_v1 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_cst_3 : Ref sig .tc := ⟨.hbm, 24, rfl⟩
abbrev main_v14 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_scratch0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x262144 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x6 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  shapeCasts_S64x512x512_S64x262144 : S64x512x512.ShapeCasts S64x262144
  inb_S8x1_S8x1_0_0 : ∀ a, (![0, 0] : Fin 2 → Nat) a + S8x1.size a ≤ S8x1.size a
  h_S8x1 : 0 < S8x1.numel
  shapeCasts_S8x1_S8x1 : S8x1.ShapeCasts S8x1
  inb_S8x262144_S8x32768_0_0 : ∀ a, (![0, 0] : Fin 2 → Nat) a + S8x32768.size a ≤ S8x262144.size a
  h_S8x32768 : 0 < S8x32768.numel
  shapeCasts_S8x32768_S8x32768 : S8x32768.ShapeCasts S8x32768
  slices_S8x32768_o0_0_S8x16384 : S8x32768.Slices ![0, 0] S8x16384
  slices_S8x32768_o0_16384_S8x16384 : S8x32768.Slices ![0, 16384] S8x16384
  slices_S8x16384_o0_0_S8x8192 : S8x16384.Slices ![0, 0] S8x8192
  slices_S8x16384_o0_8192_S8x8192 : S8x16384.Slices ![0, 8192] S8x8192
  slices_S8x8192_o0_0_S8x4096 : S8x8192.Slices ![0, 0] S8x4096
  slices_S8x8192_o0_4096_S8x4096 : S8x8192.Slices ![0, 4096] S8x4096
  slices_S8x4096_o0_0_S8x2048 : S8x4096.Slices ![0, 0] S8x2048
  slices_S8x4096_o0_2048_S8x2048 : S8x4096.Slices ![0, 2048] S8x2048
  slices_S8x2048_o0_0_S8x1024 : S8x2048.Slices ![0, 0] S8x1024
  slices_S8x2048_o0_1024_S8x1024 : S8x2048.Slices ![0, 1024] S8x1024
  slices_S8x1024_o0_0_S8x512 : S8x1024.Slices ![0, 0] S8x512
  slices_S8x1024_o0_512_S8x512 : S8x1024.Slices ![0, 512] S8x512
  slices_S8x512_o0_0_S8x256 : S8x512.Slices ![0, 0] S8x256
  slices_S8x512_o0_256_S8x256 : S8x512.Slices ![0, 256] S8x256
  slices_S8x256_o0_0_S8x128 : S8x256.Slices ![0, 0] S8x128
  slices_S8x256_o0_128_S8x128 : S8x256.Slices ![0, 128] S8x128
  slices_S8x128_o0_0_S8x64 : S8x128.Slices ![0, 0] S8x64
  slices_S8x128_o0_64_S8x64 : S8x128.Slices ![0, 64] S8x64
  slices_S8x64_o0_0_S8x32 : S8x64.Slices ![0, 0] S8x32
  slices_S8x64_o0_32_S8x32 : S8x64.Slices ![0, 32] S8x32
  slices_S8x32_o0_0_S8x16 : S8x32.Slices ![0, 0] S8x16
  slices_S8x32_o0_16_S8x16 : S8x32.Slices ![0, 16] S8x16
  slices_S8x16_o0_0_S8x8 : S8x16.Slices ![0, 0] S8x8
  slices_S8x16_o0_8_S8x8 : S8x16.Slices ![0, 8] S8x8
  slices_S8x8_o0_0_S8x4 : S8x8.Slices ![0, 0] S8x4
  slices_S8x8_o0_4_S8x4 : S8x8.Slices ![0, 4] S8x4
  slices_S8x4_o0_0_S8x2 : S8x4.Slices ![0, 0] S8x2
  slices_S8x4_o0_2_S8x2 : S8x4.Slices ![0, 2] S8x2
  slices_S8x2_o0_0_S8x1 : S8x2.Slices ![0, 0] S8x1
  slices_S8x2_o0_1_S8x1 : S8x2.Slices ![0, 1] S8x1
  inb_S8x262144_S8x32768_0_32768 : ∀ a, (![0, 32768] : Fin 2 → Nat) a + S8x32768.size a ≤ S8x262144.size a
  inb_S8x262144_S8x32768_0_65536 : ∀ a, (![0, 65536] : Fin 2 → Nat) a + S8x32768.size a ≤ S8x262144.size a
  inb_S8x262144_S8x32768_0_98304 : ∀ a, (![0, 98304] : Fin 2 → Nat) a + S8x32768.size a ≤ S8x262144.size a
  inb_S8x262144_S8x32768_0_131072 : ∀ a, (![0, 131072] : Fin 2 → Nat) a + S8x32768.size a ≤ S8x262144.size a
  inb_S8x262144_S8x32768_0_163840 : ∀ a, (![0, 163840] : Fin 2 → Nat) a + S8x32768.size a ≤ S8x262144.size a
  inb_S8x262144_S8x32768_0_196608 : ∀ a, (![0, 196608] : Fin 2 → Nat) a + S8x32768.size a ≤ S8x262144.size a
  inb_S8x262144_S8x32768_0_229376 : ∀ a, (![0, 229376] : Fin 2 → Nat) a + S8x32768.size a ≤ S8x262144.size a
  inb_S8x6_S8x1_0_0 : ∀ a, (![0, 0] : Fin 2 → Nat) a + S8x1.size a ≤ S8x6.size a
  inb_S8x6_S8x1_0_1 : ∀ a, (![0, 1] : Fin 2 → Nat) a + S8x1.size a ≤ S8x6.size a
  inb_S8x6_S8x1_0_2 : ∀ a, (![0, 2] : Fin 2 → Nat) a + S8x1.size a ≤ S8x6.size a
  inb_S8x6_S8x1_0_3 : ∀ a, (![0, 3] : Fin 2 → Nat) a + S8x1.size a ≤ S8x6.size a
  inb_S8x6_S8x1_0_4 : ∀ a, (![0, 4] : Fin 2 → Nat) a + S8x1.size a ≤ S8x6.size a
  inb_S8x6_S8x1_0_5 : ∀ a, (![0, 5] : Fin 2 → Nat) a + S8x1.size a ≤ S8x6.size a
  bcast_S_S64x6 : S_.BroadcastsInDim S64x6 (![] : Fin 0 → Fin S64x6.rank)
  reducesTo_S64x6_S_d0_1 : S64x6.ReducesTo [0, 1] S_
  h_S_ : 0 < S_.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x262144.size a ≤ S64x262144.size a
  hwx0_0 : ∀ i : grid0.Coords, EltTy.bits .i32 = 32 ∨ (Rect.block (s := S64x262144) S8x262144.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x6.size a ≤ S64x6.size a
  hwx0_1 : ∀ i : grid0.Coords, EltTy.bits .f32 = 32 ∨ (Rect.block (s := S64x6) S8x6.size (cc0_transform_1 i) (hinb0_1 i)).WholeWords (EltTy.packing .f32)

variable [Facts₀]

abbrev win0_0 : Pipeline.Window sig grid0 :=
  Pipeline.Window.ofSpec (Memref.whole main_v0) S8x262144.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S8x6.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S64x6 : Shape := ⟨2, ![64, 6]⟩
abbrev S64x512x512 : Shape := ⟨3, ![64, 512, 512]⟩
abbrev S_ : Shape := ⟨0, ![]⟩
abbrev S64 : Shape := ⟨1, ![64]⟩
abbrev S64x1 : Shape := ⟨2, ![64, 1]⟩

abbrev nBuf : Space → Nat
  | .hbm => 62
  | .vmem => 0
  | .smem => 0
  | _ => 0

abbrev bufTy : (tb : Table) → Fin (tcTables nBuf tb) → BufTy
  | .hbm, ⟨0, _⟩ => ⟨S64x6, .f32⟩
  | .hbm, ⟨1, _⟩ => ⟨S64x512x512, .i32⟩
  | .hbm, ⟨2, _⟩ => ⟨S_, .i32⟩
  | .hbm, ⟨3, _⟩ => ⟨S64x512x512, .i32⟩
  | .hbm, ⟨4, _⟩ => ⟨S64x512x512, .i1⟩
  | .hbm, ⟨5, _⟩ => ⟨S_, .i1⟩
  | .hbm, ⟨6, _⟩ => ⟨S64, .i1⟩
  | .hbm, ⟨7, _⟩ => ⟨S_, .i32⟩
  | .hbm, ⟨8, _⟩ => ⟨S64x512x512, .i32⟩
  | .hbm, ⟨9, _⟩ => ⟨S64x512x512, .i1⟩
  | .hbm, ⟨10, _⟩ => ⟨S_, .i1⟩
  | .hbm, ⟨11, _⟩ => ⟨S64, .i1⟩
  | .hbm, ⟨12, _⟩ => ⟨S_, .i32⟩
  | .hbm, ⟨13, _⟩ => ⟨S64x512x512, .i32⟩
  | .hbm, ⟨14, _⟩ => ⟨S64x512x512, .i1⟩
  | .hbm, ⟨15, _⟩ => ⟨S_, .i1⟩
  | .hbm, ⟨16, _⟩ => ⟨S64, .i1⟩
  | .hbm, ⟨17, _⟩ => ⟨S_, .i32⟩
  | .hbm, ⟨18, _⟩ => ⟨S64x512x512, .i32⟩
  | .hbm, ⟨19, _⟩ => ⟨S64x512x512, .i1⟩
  | .hbm, ⟨20, _⟩ => ⟨S_, .i1⟩
  | .hbm, ⟨21, _⟩ => ⟨S64, .i1⟩
  | .hbm, ⟨22, _⟩ => ⟨S_, .i32⟩
  | .hbm, ⟨23, _⟩ => ⟨S64x512x512, .i32⟩
  | .hbm, ⟨24, _⟩ => ⟨S64x512x512, .i1⟩
  | .hbm, ⟨25, _⟩ => ⟨S_, .i1⟩
  | .hbm, ⟨26, _⟩ => ⟨S64, .i1⟩
  | .hbm, ⟨27, _⟩ => ⟨S_, .i32⟩
  | .hbm, ⟨28, _⟩ => ⟨S64x512x512, .i32⟩
  | .hbm, ⟨29, _⟩ => ⟨S64x512x512, .i1⟩
  | .hbm, ⟨30, _⟩ => ⟨S_, .i1⟩
  | .hbm, ⟨31, _⟩ => ⟨S64, .i1⟩
  | .hbm, ⟨32, _⟩ => ⟨S64x1, .i1⟩
  | .hbm, ⟨33, _⟩ => ⟨S64x1, .i1⟩
  | .hbm, ⟨34, _⟩ => ⟨S64x1, .i1⟩
  | .hbm, ⟨35, _⟩ => ⟨S64x1, .i1⟩
  | .hbm, ⟨36, _⟩ => ⟨S64x1, .i1⟩
  | .hbm, ⟨37, _⟩ => ⟨S64x1, .i1⟩
  | .hbm, ⟨38, _⟩ => ⟨S64x6, .i1⟩
  | .hbm, ⟨39, _⟩ => ⟨S64x6, .f32⟩
  | .hbm, ⟨40, _⟩ => ⟨S64x6, .f32⟩
  | .hbm, ⟨41, _⟩ => ⟨S_, .f32⟩
  | .hbm, ⟨42, _⟩ => ⟨S_, .f32⟩
  | .hbm, ⟨43, _⟩ => ⟨S64x6, .f32⟩
  | .hbm, ⟨44, _⟩ => ⟨S64x6, .f32⟩
  | .hbm, ⟨45, _⟩ => ⟨S64x6, .f32⟩
  | .hbm, ⟨46, _⟩ => ⟨S64x6, .f32⟩
  | .hbm, ⟨47, _⟩ => ⟨S_, .f32⟩
  | .hbm, ⟨48, _⟩ => ⟨S_, .f32⟩
  | .hbm, ⟨49, _⟩ => ⟨S64x6, .f32⟩
  | .hbm, ⟨50, _⟩ => ⟨S64x6, .f32⟩
  | .hbm, ⟨51, _⟩ => ⟨S64x6, .f32⟩
  | .hbm, ⟨52, _⟩ => ⟨S_, .f32⟩
  | .hbm, ⟨53, _⟩ => ⟨S64x6, .f32⟩
  | .hbm, ⟨54, _⟩ => ⟨S64x6, .f32⟩
  | .hbm, ⟨55, _⟩ => ⟨S64x6, .f32⟩
  | .hbm, ⟨56, _⟩ => ⟨S64x6, .f32⟩
  | .hbm, ⟨57, _⟩ => ⟨S64x6, .f32⟩
  | .hbm, ⟨58, _⟩ => ⟨S_, .f32⟩
  | .hbm, ⟨59, _⟩ => ⟨S_, .f32⟩
  | .hbm, ⟨60, _⟩ => ⟨S_, .f32⟩
  | .hbm, ⟨61, _⟩ => ⟨S_, .f32⟩
  | _, _ => ⟨S64x6, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_v0 : Ref sig .tc := ⟨.hbm, 3, rfl⟩
abbrev main_v1 : Ref sig .tc := ⟨.hbm, 4, rfl⟩
abbrev main_c_0 : Ref sig .tc := ⟨.hbm, 5, rfl⟩
abbrev main_v2 : Ref sig .tc := ⟨.hbm, 6, rfl⟩
abbrev main_c_1 : Ref sig .tc := ⟨.hbm, 7, rfl⟩
abbrev main_v3 : Ref sig .tc := ⟨.hbm, 8, rfl⟩
abbrev main_v4 : Ref sig .tc := ⟨.hbm, 9, rfl⟩
abbrev main_c_2 : Ref sig .tc := ⟨.hbm, 10, rfl⟩
abbrev main_v5 : Ref sig .tc := ⟨.hbm, 11, rfl⟩
abbrev main_c_3 : Ref sig .tc := ⟨.hbm, 12, rfl⟩
abbrev main_v6 : Ref sig .tc := ⟨.hbm, 13, rfl⟩
abbrev main_v7 : Ref sig .tc := ⟨.hbm, 14, rfl⟩
abbrev main_c_4 : Ref sig .tc := ⟨.hbm, 15, rfl⟩
abbrev main_v8 : Ref sig .tc := ⟨.hbm, 16, rfl⟩
abbrev main_c_5 : Ref sig .tc := ⟨.hbm, 17, rfl⟩
abbrev main_v9 : Ref sig .tc := ⟨.hbm, 18, rfl⟩
abbrev main_v10 : Ref sig .tc := ⟨.hbm, 19, rfl⟩
abbrev main_c_6 : Ref sig .tc := ⟨.hbm, 20, rfl⟩
abbrev main_v11 : Ref sig .tc := ⟨.hbm, 21, rfl⟩
abbrev main_c_7 : Ref sig .tc := ⟨.hbm, 22, rfl⟩
abbrev main_v12 : Ref sig .tc := ⟨.hbm, 23, rfl⟩
abbrev main_v13 : Ref sig .tc := ⟨.hbm, 24, rfl⟩
abbrev main_c_8 : Ref sig .tc := ⟨.hbm, 25, rfl⟩
abbrev main_v14 : Ref sig .tc := ⟨.hbm, 26, rfl⟩
abbrev main_c_9 : Ref sig .tc := ⟨.hbm, 27, rfl⟩
abbrev main_v15 : Ref sig .tc := ⟨.hbm, 28, rfl⟩
abbrev main_v16 : Ref sig .tc := ⟨.hbm, 29, rfl⟩
abbrev main_c_10 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_cst : Ref sig .tc := ⟨.hbm, 41, rfl⟩
abbrev main_call0_v0 : Ref sig .tc := ⟨.hbm, 42, rfl⟩
abbrev main_call0_v1 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_cst_11 : Ref sig .tc := ⟨.hbm, 47, rfl⟩
abbrev main_call1_v0 : Ref sig .tc := ⟨.hbm, 48, rfl⟩
abbrev main_call1_v1 : Ref sig .tc := ⟨.hbm, 49, rfl⟩
abbrev main_v30 : Ref sig .tc := ⟨.hbm, 50, rfl⟩
abbrev main_v31 : Ref sig .tc := ⟨.hbm, 51, rfl⟩
abbrev main_cst_12 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_cst_13 : Ref sig .tc := ⟨.hbm, 58, rfl⟩
abbrev main_v37 : Ref sig .tc := ⟨.hbm, 59, rfl⟩
abbrev main_cst_14 : Ref sig .tc := ⟨.hbm, 60, rfl⟩
abbrev main_v38 : Ref sig .tc := ⟨.hbm, 61, rfl⟩

abbrev nD : Nat := 1
abbrev τ : Topo := Topo.v7x

variable {F : FTy → Type} [FloatOps F]

class Facts₀ : Prop where
  bcast_S_S64x512x512 : S_.BroadcastsInDim S64x512x512 (![] : Fin 0 → Fin S64x512x512.rank)
  reducesTo_S64x512x512_S64_d1_2 : S64x512x512.ReducesTo [1, 2] S64
  h_S_ : 0 < S_.numel
  bcast_S64_S64x1_0 : S64.BroadcastsInDim S64x1 (![0] : Fin 1 → Fin S64x1.rank)
  concatenates_S64x1_S64x1_S64x1_S64x1_S64x1_S64x1_S64x6_d1 : Shape.Concatenates [S64x1, S64x1, S64x1, S64x1, S64x1, S64x1] S64x6 1
  bcast_S_S64x6 : S_.BroadcastsInDim S64x6 (![] : Fin 0 → Fin S64x6.rank)
  reducesTo_S64x6_S_d0_1 : S64x6.ReducesTo [0, 1] S_

variable [Facts₀]

class Facts : Prop extends Facts₀ where

variable [Facts]
-- ==== Proof.LibOrFold.lean ====
/-
  A row-wise OR of 32-bit words computed by repeated halving, read one bit at a time.

  For an array `v` over [a, n] of 32-bit words, `rowBit c v r` says that some entry of row `r` has bit `c`
  set. OR-ing the right half of every row onto its left half (two unit-stride slices of width n/2 joined
  by a bitwise OR) keeps this property for every bit and every row (`rowBit_halve`), because a bit of an OR
  is the disjunction of the operands' bits and the two halves together are the whole row. Repeating the
  step down to width one therefore leaves, in the single remaining column, a word whose bit `c` is set
  exactly when the row had an entry with bit `c` set (`rowBit_one`).
-/
import Idealize.ShloMosaic.Lib.Pipeline.Value
import Idealize.ShloMosaic.Lib.ValueIdx

namespace Cert.OrFold

open Idealize.ShloMosaic Idealize.ShloMosaic.ValueIdx

/-- Some entry of row `r` of `v` has bit `c` set. -/
def rowBit {a n : Nat} (c : Nat) (v : IVec (⟨2, ![a, n]⟩ : Shape) 32) (r : Fin a) : Prop :=
  ∃ q : Fin n, (v (ix2 r q)).getLsbD c = true

/-- A bit of a bitwise OR is set exactly when it is set in one of the operands. -/
theorem ori_bit (x y : BitVec 32) (c : Nat) :
    (IntOp.ori x y).getLsbD c = true ↔ x.getLsbD c = true ∨ y.getLsbD c = true := by
  unfold IntOp.ori
  rw [BitVec.getLsbD_or, Bool.or_eq_true]

/-- The left half of row `r`, read at column `q`. -/
theorem left_half_apply {a n k : Nat} (v : IVec (⟨2, ![a, n]⟩ : Shape) 32)
    (hs : (⟨2, ![a, n]⟩ : Shape).Slices ![0, 0] ⟨2, ![a, k]⟩) (r : Fin a) (q : Fin k) (hq : q.val < n) :
    extractStridedSlice ⟨2, ![a, k]⟩ ![0, 0] v hs (ix2 r q) = v (ix2 r (⟨q.val, hq⟩ : Fin n)) :=
  extractStridedSlice_apply ![0, 0] v hs (ix2 r q) (ix2 r (⟨q.val, hq⟩ : Fin n)) (by
    intro d; fin_cases d <;> simp [ix2])

/-- The right half of row `r`, read at column `q`. -/
theorem right_half_apply {a n k : Nat} (v : IVec (⟨2, ![a, n]⟩ : Shape) 32)
    (hs : (⟨2, ![a, n]⟩ : Shape).Slices ![0, k] ⟨2, ![a, k]⟩) (r : Fin a) (q : Fin k) (hq : k + q.val < n) :
    extractStridedSlice ⟨2, ![a, k]⟩ ![0, k] v hs (ix2 r q) = v (ix2 r (⟨k + q.val, hq⟩ : Fin n)) :=
  extractStridedSlice_apply ![0, k] v hs (ix2 r q) (ix2 r (⟨k + q.val, hq⟩ : Fin n)) (by
    intro d; fin_cases d <;> simp [ix2])

/-- OR-ing the right half of every row onto its left half keeps, for every bit, whether the row has it. -/
theorem rowBit_halve {a n k : Nat} (hn : n = k + k) (c : Nat) (v : IVec (⟨2, ![a, n]⟩ : Shape) 32)
    (hs0 : (⟨2, ![a, n]⟩ : Shape).Slices ![0, 0] ⟨2, ![a, k]⟩)
    (hs1 : (⟨2, ![a, n]⟩ : Shape).Slices ![0, k] ⟨2, ![a, k]⟩) (r : Fin a) :
    rowBit c (ori (extractStridedSlice ⟨2, ![a, k]⟩ ![0, 0] v hs0) (extractStridedSlice ⟨2, ![a, k]⟩ ![0, k] v hs1)) r
      ↔ rowBit c v r := by
  unfold rowBit
  constructor
  · rintro ⟨q, hq⟩
    have hq' : (IntOp.ori (extractStridedSlice ⟨2, ![a, k]⟩ ![0, 0] v hs0 (ix2 r q))
        (extractStridedSlice ⟨2, ![a, k]⟩ ![0, k] v hs1 (ix2 r q))).getLsbD c = true := hq
    rw [ori_bit, left_half_apply v hs0 r q (by have := q.isLt; omega),
      right_half_apply v hs1 r q (by have := q.isLt; omega)] at hq'
    rcases hq' with h | h
    · exact ⟨_, h⟩
    · exact ⟨_, h⟩
  · rintro ⟨q, hq⟩
    by_cases hlt : q.val < k
    · refine ⟨⟨q.val, hlt⟩, ?_⟩
      show (IntOp.ori (extractStridedSlice ⟨2, ![a, k]⟩ ![0, 0] v hs0 (ix2 r ⟨q.val, hlt⟩))
        (extractStridedSlice ⟨2, ![a, k]⟩ ![0, k] v hs1 (ix2 r ⟨q.val, hlt⟩))).getLsbD c = true
      rw [ori_bit, left_half_apply v hs0 r ⟨q.val, hlt⟩ q.isLt]
      exact Or.inl hq
    · have hge : k ≤ q.val := Nat.le_of_not_lt hlt
      have hlt' : q.val - k < k := by have := q.isLt; omega
      refine ⟨⟨q.val - k, hlt'⟩, ?_⟩
      show (IntOp.ori (extractStridedSlice ⟨2, ![a, k]⟩ ![0, 0] v hs0 (ix2 r ⟨q.val - k, hlt'⟩))
        (extractStridedSlice ⟨2, ![a, k]⟩ ![0, k] v hs1 (ix2 r ⟨q.val - k, hlt'⟩))).getLsbD c = true
      rw [ori_bit, right_half_apply v hs1 r ⟨q.val - k, hlt'⟩ (by have := q.isLt; show k + (q.val - k) < n; omega)]
      refine Or.inr ?_
      have e : (⟨k + (q.val - k), by have := q.isLt; omega⟩ : Fin n) = q := Fin.ext (by show k + (q.val - k) = q.val; omega)
      rw [e]
      exact hq

/-- A row of width one has an entry with bit `c` set exactly when its one entry has. -/
theorem rowBit_one {a : Nat} (c : Nat) (v : IVec (⟨2, ![a, 1]⟩ : Shape) 32) (r : Fin a) :
    rowBit c v r ↔ (v (ix2 r (0 : Fin 1))).getLsbD c = true := by
  unfold rowBit
  constructor
  · rintro ⟨q, hq⟩
    have : q = 0 := Subsingleton.elim _ _
    subst this
    exact hq
  · intro h
    exact ⟨0, h⟩

/-- Entry by entry equal arrays have the same rows. -/
theorem rowBit_congr {a n : Nat} (c : Nat) (v w : IVec (⟨2, ![a, n]⟩ : Shape) 32) (r : Fin a)
    (h : ∀ q : Fin n, (v (ix2 r q)).getLsbD c = (w (ix2 r q)).getLsbD c) : rowBit c v r ↔ rowBit c w r := by
  unfold rowBit
  constructor
  · rintro ⟨q, hq⟩; exact ⟨q, (h q) ▸ hq⟩
  · rintro ⟨q, hq⟩; exact ⟨q, (h q).symm ▸ hq⟩

end Cert.OrFold
-- ==== Proof.Presence.lean ====
/-
  Class presence over the extended reals, and the word arithmetic that computes it.

  `flag p` is the real 1 when `p` holds and 0 otherwise. The kernel marks a label `x` by the word
  `oneHot x` (bit `c` set exactly when `x` is the class `c`, for the six classes 0 … 5; `oneHot_bit`), ORs the
  marks of a row together, and reads bit `c` back as `(w >>ₛ c) &&& 1`, which is the word 1 when bit `c` of `w` is
  set and the word 0 otherwise (`bit_extract`); converted to a float that is `flag` of the bit. The
  reference converts the one-bit word of "some entry equals `c`" to a float, which is `flag` of that
  statement as well.
-/
import Idealize.ShloMosaic.PureOps.Ideal
import Idealize.ShloMosaic.Lib.ValueIdx

noncomputable section

namespace Cert.Presence

open Idealize.ShloMosaic Idealize.ShloMosaic.ValueIdx

open Classical in
/-- The real 1 when `p` holds, the real 0 otherwise. -/
def flag (p : Prop) : EReal := if p then ((1 : ℝ) : EReal) else ((0 : ℝ) : EReal)

theorem flag_congr {p q : Prop} (h : p ↔ q) : flag p = flag q := by
  rw [propext h]

theorem flag_true {p : Prop} (h : p) : flag p = ((1 : ℝ) : EReal) := by
  unfold flag; rw [if_pos h]

theorem flag_false {p : Prop} (h : ¬p) : flag p = ((0 : ℝ) : EReal) := by
  unfold flag; rw [if_neg h]

/-- Equal words compare equal. -/
theorem cmpi_eq_self (x : BitVec 32) : IntOp.cmpi .eq x x = 1#1 := by
  simp [IntOp.cmpi]

/-- Different words compare different. -/
theorem cmpi_eq_of_ne {x y : BitVec 32} (h : x ≠ y) : IntOp.cmpi .eq x y = 0#1 := by
  have hb : (x == y) = false := beq_eq_false_iff_ne.mpr h
  simp [IntOp.cmpi, hb]

/-- The comparison's bit is 1 exactly when the words are equal. -/
theorem cmpi_eq_one_iff (x y : BitVec 32) : IntOp.cmpi .eq x y = 1#1 ↔ x = y := by
  by_cases h : x = y
  · subst h; simp [cmpi_eq_self]
  · simp [cmpi_eq_of_ne h, h]

/-- The mark of a label: bit `c` set when the label is the class `c` (0 … 5), the zero word for any other
    label; six compare-and-select steps, the last class outermost. -/
def oneHot (x : BitVec 32) : BitVec 32 :=
  Scalar.select (IntOp.cmpi .eq x 5#32) 32#32
    (Scalar.select (IntOp.cmpi .eq x 4#32) 16#32
      (Scalar.select (IntOp.cmpi .eq x 3#32) 8#32
        (Scalar.select (IntOp.cmpi .eq x 2#32) 4#32
          (Scalar.select (IntOp.cmpi .eq x 1#32) 2#32
            (Scalar.select (IntOp.cmpi .eq x 0#32) 1#32 0#32)))))

/-- Bit `c` of a label's mark is set exactly when the label is the class `c`. -/
theorem oneHot_bit (x : BitVec 32) (c : Fin 6) : (oneHot x).getLsbD c.val = true ↔ x = BitVec.ofNat 32 c.val := by
  unfold oneHot
  by_cases h5 : x = 5#32
  · subst h5; fin_cases c <;> decide
  by_cases h4 : x = 4#32
  · subst h4; fin_cases c <;> decide
  by_cases h3 : x = 3#32
  · subst h3; fin_cases c <;> decide
  by_cases h2 : x = 2#32
  · subst h2; fin_cases c <;> decide
  by_cases h1 : x = 1#32
  · subst h1; fin_cases c <;> decide
  by_cases h0 : x = 0#32
  · subst h0; fin_cases c <;> decide
  rw [cmpi_eq_of_ne h5, cmpi_eq_of_ne h4, cmpi_eq_of_ne h3, cmpi_eq_of_ne h2, cmpi_eq_of_ne h1, cmpi_eq_of_ne h0]
  simp only [select_zero]
  fin_cases c <;> simp_all

/-- `(w >>ₛ c) &&& 1` is the word 1 when bit `c` of `w` is set and the word 0 otherwise. -/
theorem bit_extract (w : BitVec 32) (c : Nat) (hc : c < 32) :
    IntOp.andi (IntOp.shrsi .vector w (BitVec.ofNat 32 c)) 1#32 = if w.getLsbD c = true then 1#32 else 0#32 := by
  have hto : (BitVec.ofNat 32 c).toNat = c := by
    rw [BitVec.toNat_ofNat]; exact Nat.mod_eq_of_lt (by omega)
  unfold IntOp.andi IntOp.shrsi
  rw [if_pos (by rw [hto]; exact hc)]
  apply BitVec.eq_of_getLsbD_eq
  intro i hi
  rw [BitVec.getLsbD_and]
  show ((w.sshiftRight (BitVec.ofNat 32 c).toNat).getLsbD i && (1#32).getLsbD i) = _
  rw [hto, BitVec.getLsbD_sshiftRight]
  by_cases hi0 : i = 0
  · subst hi0
    have hc0 : c + 0 < 32 := by omega
    rw [if_pos hc0]
    by_cases hb : w.getLsbD c = true
    · rw [if_pos hb]; simp [hb]
    · rw [if_neg hb]; simp [hb]
  · have h1 : (1#32).getLsbD i = false := by
      simp [BitVec.getLsbD_one, hi0]
    rw [h1, Bool.and_false]
    by_cases hb : w.getLsbD c = true
    · simp [hb, hi0]
    · simp [hb]

/-- The signed conversion of the word 0 or 1 picked by a bit is `flag` of the bit. -/
theorem sitofp_bit (b : Bool) :
    FloatOps.sitofp (F := Ideal) .f32 (if b = true then 1#32 else 0#32) = flag (b = true) := by
  cases b
  · rw [if_neg (by decide), flag_false (by decide)]
    show (((0#32 : BitVec 32).toInt : ℝ) : EReal) = _
    norm_num
  · rw [if_pos rfl, flag_true rfl]
    show (((1#32 : BitVec 32).toInt : ℝ) : EReal) = _
    norm_num

/-- The unsigned conversion of a one-bit word is `flag` of its being 1. -/
theorem uitofp_bit (w : BitVec 1) : FloatOps.uitofp (F := Ideal) .f32 w = flag (w = 1#1) := by
  rcases BitVec.eq_zero_or_eq_one w with h | h
  · subst h
    rw [flag_false (by decide)]
    show (((0#1 : BitVec 1).toNat : ℝ) : EReal) = _
    norm_num
  · subst h
    rw [flag_true rfl]
    show (((1#1 : BitVec 1).toNat : ℝ) : EReal) = _
    norm_num

end Cert.Presence

end
-- ==== Proof.KernelChunks.lean ====
/-
  The kernel's accumulator, one chunk of a block of rows at a time.

  The body walks a block of eight rows of labels in eight chunks of 32768 columns. For each chunk it marks
  every label by its one-hot word, folds each row's marks together by fifteen halving steps (OR the right
  half of the row onto the left half) and ORs the one remaining column onto the accumulator column. By
  `rowBit_halve` each halving step keeps, for every bit, whether the row has it; so after a chunk, bit `c` of
  the accumulator in row `r` is set exactly when it was set before or some label of the chunk's row `r` has a
  mark with bit `c` set (`step1` … `step8`, one per chunk: the eight chunks' texts differ only in where the
  printed program was cut into named pieces). Starting from the zero column, after the eight chunks bit `c`
  is set exactly when one of the eight chunks has such a label (`acc_bit`).
-/
import proofs.«175386_j37099927503097_2_alg».proof.Proof.Gen.KernelIdeal.Skeleton
import proofs.«175386_j37099927503097_2_alg».proof.Proof.LibOrFold
import proofs.«175386_j37099927503097_2_alg».proof.Proof.Presence
import Idealize.ShloMosaic.Lib.Pipeline.Value

noncomputable section

namespace Cert.KernelIdeal.Chunks

open Cert.KernelIdeal Cert.KernelIdeal.Gen Idealize.ShloMosaic Idealize.ShloMosaic.ValueIdx Cert.OrFold Cert.Presence

/-- The marks of a chunk of labels, entry by entry. -/
def marks (ld : IVec S8x32768 32) : IVec S8x32768 32 := fun i => oneHot (ld i)

/-- OR-ing a column onto the accumulator column: a bit is set afterwards when it was set before or the
    column's row has it. -/
theorem acc_step (prev v : IVec S8x1 32) (r : Fin 8) (c : Nat) :
    ((ori prev v) (ix2 r (0 : Fin 1))).getLsbD c = true
      ↔ (prev (ix2 r (0 : Fin 1))).getLsbD c = true ∨ rowBit c v r := by
  rw [rowBit_one]
  exact ori_bit _ _ c

/-- One chunk: open the named pieces, split off the accumulator, undo the fifteen halvings; what is left is
    the marks of the chunk, entry by entry. -/
macro "chunk_step" : tactic =>
  `(tactic| (simp only [k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, shapeCast_self]
             rw [acc_step]
             simp (disch := decide) only [↓rowBit_halve]
             exact Iff.rfl))

/-- The accumulator after chunk 1, from the chunk's labels and the accumulator before it. -/
def next1 (ld : Vec Ideal S8x32768 .i32) (prev : Vec Ideal S8x1 .i32) : IVec S8x1 32 :=
  k0_pay4 (k0_pay3 ld) prev

theorem step1 (ld : Vec Ideal S8x32768 .i32) (prev : Vec Ideal S8x1 .i32) (r : Fin 8) (c : Nat) :
    (next1 ld prev (ix2 r (0 : Fin 1))).getLsbD c = true
      ↔ (prev (ix2 r (0 : Fin 1))).getLsbD c = true ∨ rowBit c (marks ld) r := by
  unfold next1
  chunk_step

/-- The accumulator after chunk 2, from the chunk's labels and the accumulator before it. -/
def next2 (ld : Vec Ideal S8x32768 .i32) (prev : Vec Ideal S8x1 .i32) : IVec S8x1 32 :=
  k0_pay11 (k0_pay9 (k0_pay5 ld) (k0_pay6 ld) k0_pay7) (k0_pay10 (k0_pay5 ld) (k0_pay6 ld) k0_pay7) prev

theorem step2 (ld : Vec Ideal S8x32768 .i32) (prev : Vec Ideal S8x1 .i32) (r : Fin 8) (c : Nat) :
    (next2 ld prev (ix2 r (0 : Fin 1))).getLsbD c = true
      ↔ (prev (ix2 r (0 : Fin 1))).getLsbD c = true ∨ rowBit c (marks ld) r := by
  unfold next2
  chunk_step

/-- The accumulator after chunk 3, from the chunk's labels and the accumulator before it. -/
def next3 (ld : Vec Ideal S8x32768 .i32) (prev : Vec Ideal S8x1 .i32) : IVec S8x1 32 :=
  k0_pay14 (k0_pay12 ld) (k0_pay13 ld) (5#32) prev

theorem step3 (ld : Vec Ideal S8x32768 .i32) (prev : Vec Ideal S8x1 .i32) (r : Fin 8) (c : Nat) :
    (next3 ld prev (ix2 r (0 : Fin 1))).getLsbD c = true
      ↔ (prev (ix2 r (0 : Fin 1))).getLsbD c = true ∨ rowBit c (marks ld) r := by
  unfold next3
  chunk_step

/-- The accumulator after chunk 4, from the chunk's labels and the accumulator before it. -/
def next4 (ld : Vec Ideal S8x32768 .i32) (prev : Vec Ideal S8x1 .i32) : IVec S8x1 32 :=
  k0_pay16 (k0_pay15 ld) prev

theorem step4 (ld : Vec Ideal S8x32768 .i32) (prev : Vec Ideal S8x1 .i32) (r : Fin 8) (c : Nat) :
    (next4 ld prev (ix2 r (0 : Fin 1))).getLsbD c = true
      ↔ (prev (ix2 r (0 : Fin 1))).getLsbD c = true ∨ rowBit c (marks ld) r := by
  unfold next4
  chunk_step

/-- The accumulator after chunk 5, from the chunk's labels and the accumulator before it. -/
def next5 (ld : Vec Ideal S8x32768 .i32) (prev : Vec Ideal S8x1 .i32) : IVec S8x1 32 :=
  k0_pay24 (k0_pay22 (k0_pay17 ld) (k0_pay18 ld) (k0_pay19 ld) k0_pay20) (k0_pay23 (k0_pay17 ld) (k0_pay18 ld) (k0_pay19 ld) k0_pay20) prev

theorem step5 (ld : Vec Ideal S8x32768 .i32) (prev : Vec Ideal S8x1 .i32) (r : Fin 8) (c : Nat) :
    (next5 ld prev (ix2 r (0 : Fin 1))).getLsbD c = true
      ↔ (prev (ix2 r (0 : Fin 1))).getLsbD c = true ∨ rowBit c (marks ld) r := by
  unfold next5
  chunk_step

/-- The accumulator after chunk 6, from the chunk's labels and the accumulator before it. -/
def next6 (ld : Vec Ideal S8x32768 .i32) (prev : Vec Ideal S8x1 .i32) : IVec S8x1 32 :=
  k0_pay27 (k0_pay25 ld) (k0_pay26 ld) prev

theorem step6 (ld : Vec Ideal S8x32768 .i32) (prev : Vec Ideal S8x1 .i32) (r : Fin 8) (c : Nat) :
    (next6 ld prev (ix2 r (0 : Fin 1))).getLsbD c = true
      ↔ (prev (ix2 r (0 : Fin 1))).getLsbD c = true ∨ rowBit c (marks ld) r := by
  unfold next6
  chunk_step

/-- The accumulator after chunk 7, from the chunk's labels and the accumulator before it. -/
def next7 (ld : Vec Ideal S8x32768 .i32) (prev : Vec Ideal S8x1 .i32) : IVec S8x1 32 :=
  k0_pay32 (k0_pay31 (k0_pay28 ld) k0_pay29 (k0_pay30 ld)) prev

theorem step7 (ld : Vec Ideal S8x32768 .i32) (prev : Vec Ideal S8x1 .i32) (r : Fin 8) (c : Nat) :
    (next7 ld prev (ix2 r (0 : Fin 1))).getLsbD c = true
      ↔ (prev (ix2 r (0 : Fin 1))).getLsbD c = true ∨ rowBit c (marks ld) r := by
  unfold next7
  chunk_step

/-- The accumulator after chunk 8, from the chunk's labels and the accumulator before it. -/
def next8 (ld : Vec Ideal S8x32768 .i32) (prev : Vec Ideal S8x1 .i32) : IVec S8x1 32 :=
  k0_pay37 (k0_pay36 (k0_pay33 ld) (k0_pay34 ld) k0_pay35 prev)

theorem step8 (ld : Vec Ideal S8x32768 .i32) (prev : Vec Ideal S8x1 .i32) (r : Fin 8) (c : Nat) :
    (next8 ld prev (ix2 r (0 : Fin 1))).getLsbD c = true
      ↔ (prev (ix2 r (0 : Fin 1))).getLsbD c = true ∨ rowBit c (marks ld) r := by
  unfold next8
  chunk_step

/-- The accumulator column after the eight chunks, from the zero column. -/
def acc (l1 l2 l3 l4 l5 l6 l7 l8 : Vec Ideal S8x32768 .i32) : IVec S8x1 32 :=
  next8 l8 (next7 l7 (next6 l6 (next5 l5 (next4 l4 (next3 l3 (next2 l2 (next1 l1 k0_pay2)))))))

/-- The zero column has no bit set. -/
theorem zero_bit (r : Fin 8) (c : Nat) : (k0_pay2 (ix2 r (0 : Fin 1))).getLsbD c = true ↔ False := by
  simp only [k0_pay2, shapeCast_self]
  show ((0#32 : BitVec 32).getLsbD c = true) ↔ False
  simp

/-- After the eight chunks, bit `c` of the accumulator in row `r` is set exactly when some chunk's row `r` has a
    label whose mark has bit `c` set. -/
theorem acc_bit (l1 l2 l3 l4 l5 l6 l7 l8 : Vec Ideal S8x32768 .i32) (r : Fin 8) (c : Nat) :
    (acc l1 l2 l3 l4 l5 l6 l7 l8 (ix2 r (0 : Fin 1))).getLsbD c = true
      ↔ rowBit c (marks l1) r ∨ rowBit c (marks l2) r ∨ rowBit c (marks l3) r ∨ rowBit c (marks l4) r
        ∨ rowBit c (marks l5) r ∨ rowBit c (marks l6) r ∨ rowBit c (marks l7) r ∨ rowBit c (marks l8) r := by
  unfold acc
  rw [step8, step7, step6, step5, step4, step3, step2, step1, zero_bit]
  tauto

end Cert.KernelIdeal.Chunks

end
-- ==== Proof.KernelBody.lean ====
/-
  What one grid point leaves in its block of the presence array.

  The block holds eight rows of 262144 labels. The body's six column stores leave, at row `r` and column `k`, the
  float of bit `k` of the accumulator column (`(w >>ₛ k) &&& 1`, converted), and the accumulator is the OR over
  the eight chunks of the rows' marks. So entry (r, k) is 1 when some label of row `r` of the block is the class
  `k`, and 0 otherwise (`out_apply`): bit `k` of a mark is set exactly when the label is `k`, and the eight chunks
  of 32768 columns together are the 262144 columns of the row.
-/
import proofs.«175386_j37099927503097_2_alg».proof.Proof.Gen.KernelIdeal.Frame
import proofs.«175386_j37099927503097_2_alg».proof.Proof.KernelChunks

set_option maxRecDepth 16384

noncomputable section

namespace Cert.KernelIdeal.Body

open Cert.KernelIdeal Cert.KernelIdeal.Gen Cert.KernelIdeal.Chunks Idealize.ShloMosaic Idealize.ShloMosaic.TcCoe Idealize.ShloMosaic.Tactic
open Idealize.ShloMosaic.ValueIdx Cert.OrFold Cert.Presence

/-! ## One column store read back -/

/-- A store of one column, last, read at that column: the stored column's entry of the row. -/
theorem col_hit (k : Nat) (hk : k < 6) (inb : ∀ a : Fin 2, (![0, k] : Fin 2 → Nat) a + (![8, 1] : Fin 2 → Nat) a ≤ S8x6.size a)
    (w : (Rect.unit (s := S8x6) ![0, k] ![8, 1] inb).shape.Idx → Elt Ideal .f32) (L : List (View.Piece (Elt Ideal) S8x6 .f32)) (r : Fin 8) :
    View.canon ((⟨Rect.unit (s := S8x6) ![0, k] ![8, 1] inb, w⟩ : View.Piece (Elt Ideal) S8x6 .f32) :: L) (ix2 r (⟨k, hk⟩ : Fin 6))
      = w (ix2 r (0 : Fin 1)) := by
  have e : ix2 r (⟨k, hk⟩ : Fin 6) = (Rect.unit (s := S8x6) ![0, k] ![8, 1] inb).emb (ix2 r (0 : Fin 1)) := by
    funext a; apply Fin.ext; rw [Rect.emb_apply]; fin_cases a <;> simp [ix2]
  rw [e]
  exact View.canon_cons_emb _ w L _

/-- A store of another column, last, does not change what an earlier store left at this column. -/
theorem col_miss (k k' : Nat) (hk : k < 6) (hne : k ≠ k') (inb : ∀ a : Fin 2, (![0, k'] : Fin 2 → Nat) a + (![8, 1] : Fin 2 → Nat) a ≤ S8x6.size a)
    (w : (Rect.unit (s := S8x6) ![0, k'] ![8, 1] inb).shape.Idx → Elt Ideal .f32) (L : List (View.Piece (Elt Ideal) S8x6 .f32)) (r : Fin 8) :
    View.canon ((⟨Rect.unit (s := S8x6) ![0, k'] ![8, 1] inb, w⟩ : View.Piece (Elt Ideal) S8x6 .f32) :: L) (ix2 r (⟨k, hk⟩ : Fin 6))
      = View.canon L (ix2 r (⟨k, hk⟩ : Fin 6)) := by
  refine View.canon_cons_of_not_mem _ L ?_
  show ix2 r (⟨k, hk⟩ : Fin 6) ∉ (Rect.unit (s := S8x6) ![0, k'] ![8, 1] inb).set
  rw [Rect.mem_set_unit]
  intro h
  have h1 : k' ≤ k ∧ k < k' + 1 := h 1
  omega

/-! ## A chunk of the block -/

/-- A chunk of 32768 columns of the block at column `off`, read at (r, q): the block at (r, off + q). -/
theorem chunk_apply (x0 : Vec Ideal S8x262144 .i32) (off : Nat)
    (inb : ∀ a : Fin 2, (![0, off] : Fin 2 → Nat) a + (![8, 32768] : Fin 2 → Nat) a ≤ S8x262144.size a)
    (r : Fin 8) (q : Fin 32768) (h : off + q.val < 262144) :
    View.ld x0 (Rect.unit (s := S8x262144) ![0, off] ![8, 32768] inb) (ix2 r q) = x0 (ix2 r (⟨off + q.val, h⟩ : Fin 262144)) := by
  show x0 ((Rect.unit (s := S8x262144) ![0, off] ![8, 32768] inb).emb (ix2 r q)) = _
  refine congrArg x0 ?_
  funext a; apply Fin.ext; rw [Rect.emb_apply]; fin_cases a <;> simp [ix2]

/-- Row `r` of a chunk has a label whose mark has bit `k` set exactly when it has the label `k`. -/
theorem chunk_rowBit (x0 : Vec Ideal S8x262144 .i32) (off : Nat)
    (inb : ∀ a : Fin 2, (![0, off] : Fin 2 → Nat) a + (![8, 32768] : Fin 2 → Nat) a ≤ S8x262144.size a)
    (hoff : off + 32768 ≤ 262144) (r : Fin 8) (k : Fin 6) :
    rowBit k.val (marks (View.ld x0 (Rect.unit (s := S8x262144) ![0, off] ![8, 32768] inb))) r
      ↔ ∃ q : Fin 32768, ∃ h : off + q.val < 262144, x0 (ix2 r (⟨off + q.val, h⟩ : Fin 262144)) = BitVec.ofNat 32 k.val := by
  unfold rowBit marks
  constructor
  · rintro ⟨q, hq⟩
    have h : off + q.val < 262144 := by have := q.isLt; omega
    refine ⟨q, h, ?_⟩
    rw [← chunk_apply x0 off inb r q h]
    exact (oneHot_bit _ k).mp hq
  · rintro ⟨q, h, hq⟩
    refine ⟨q, ?_⟩
    rw [← chunk_apply x0 off inb r q h] at hq
    exact (oneHot_bit _ k).mpr hq

/-- The eight chunks of a row are the row. -/
theorem acc_present (x0 : Vec Ideal S8x262144 .i32)
    (inb0 : (∀ a : Fin 2, (![0, 0] : Fin 2 → Nat) a + (![8, 32768] : Fin 2 → Nat) a ≤ S8x262144.size a))
    (inb1 : (∀ a : Fin 2, (![0, 32768] : Fin 2 → Nat) a + (![8, 32768] : Fin 2 → Nat) a ≤ S8x262144.size a))
    (inb2 : (∀ a : Fin 2, (![0, 65536] : Fin 2 → Nat) a + (![8, 32768] : Fin 2 → Nat) a ≤ S8x262144.size a))
    (inb3 : (∀ a : Fin 2, (![0, 98304] : Fin 2 → Nat) a + (![8, 32768] : Fin 2 → Nat) a ≤ S8x262144.size a))
    (inb4 : (∀ a : Fin 2, (![0, 131072] : Fin 2 → Nat) a + (![8, 32768] : Fin 2 → Nat) a ≤ S8x262144.size a))
    (inb5 : (∀ a : Fin 2, (![0, 163840] : Fin 2 → Nat) a + (![8, 32768] : Fin 2 → Nat) a ≤ S8x262144.size a))
    (inb6 : (∀ a : Fin 2, (![0, 196608] : Fin 2 → Nat) a + (![8, 32768] : Fin 2 → Nat) a ≤ S8x262144.size a))
    (inb7 : (∀ a : Fin 2, (![0, 229376] : Fin 2 → Nat) a + (![8, 32768] : Fin 2 → Nat) a ≤ S8x262144.size a))
    (r : Fin 8) (k : Fin 6) :
    (acc (View.ld x0 (Rect.unit (s := S8x262144) ![0, 0] ![8, 32768] inb0))
        (View.ld x0 (Rect.unit (s := S8x262144) ![0, 32768] ![8, 32768] inb1))
        (View.ld x0 (Rect.unit (s := S8x262144) ![0, 65536] ![8, 32768] inb2))
        (View.ld x0 (Rect.unit (s := S8x262144) ![0, 98304] ![8, 32768] inb3))
        (View.ld x0 (Rect.unit (s := S8x262144) ![0, 131072] ![8, 32768] inb4))
        (View.ld x0 (Rect.unit (s := S8x262144) ![0, 163840] ![8, 32768] inb5))
        (View.ld x0 (Rect.unit (s := S8x262144) ![0, 196608] ![8, 32768] inb6))
        (View.ld x0 (Rect.unit (s := S8x262144) ![0, 229376] ![8, 32768] inb7))
        (ix2 r (0 : Fin 1))).getLsbD k.val = true
      ↔ ∃ q : Fin 262144, x0 (ix2 r q) = BitVec.ofNat 32 k.val := by
  rw [acc_bit, chunk_rowBit x0 0 inb0 (by omega) r k, chunk_rowBit x0 32768 inb1 (by omega) r k, chunk_rowBit x0 65536 inb2 (by omega) r k, chunk_rowBit x0 98304 inb3 (by omega) r k, chunk_rowBit x0 131072 inb4 (by omega) r k, chunk_rowBit x0 163840 inb5 (by omega) r k, chunk_rowBit x0 196608 inb6 (by omega) r k, chunk_rowBit x0 229376 inb7 (by omega) r k]
  constructor
  · rintro (⟨q, h, hq⟩ | ⟨q, h, hq⟩ | ⟨q, h, hq⟩ | ⟨q, h, hq⟩ | ⟨q, h, hq⟩ | ⟨q, h, hq⟩ | ⟨q, h, hq⟩ | ⟨q, h, hq⟩) <;> exact ⟨_, hq⟩
  · rintro ⟨q, hq⟩
    have hq262 : q.val < 262144 := q.isLt
    by_cases h0 : q.val < 32768
    · left; refine ⟨⟨q.val - 0, by omega⟩, by show 0 + (q.val - 0) < 262144; omega, ?_⟩
      have e : (⟨0 + (q.val - 0), by omega⟩ : Fin 262144) = q := Fin.ext (by show 0 + (q.val - 0) = q.val; omega)
      rw [e]; exact hq
    by_cases h1 : q.val < 65536
    · right; left; refine ⟨⟨q.val - 32768, by omega⟩, by show 32768 + (q.val - 32768) < 262144; omega, ?_⟩
      have e : (⟨32768 + (q.val - 32768), by omega⟩ : Fin 262144) = q := Fin.ext (by show 32768 + (q.val - 32768) = q.val; omega)
      rw [e]; exact hq
    by_cases h2 : q.val < 98304
    · right; right; left; refine ⟨⟨q.val - 65536, by omega⟩, by show 65536 + (q.val - 65536) < 262144; omega, ?_⟩
      have e : (⟨65536 + (q.val - 65536), by omega⟩ : Fin 262144) = q := Fin.ext (by show 65536 + (q.val - 65536) = q.val; omega)
      rw [e]; exact hq
    by_cases h3 : q.val < 131072
    · right; right; right; left; refine ⟨⟨q.val - 98304, by omega⟩, by show 98304 + (q.val - 98304) < 262144; omega, ?_⟩
      have e : (⟨98304 + (q.val - 98304), by omega⟩ : Fin 262144) = q := Fin.ext (by show 98304 + (q.val - 98304) = q.val; omega)
      rw [e]; exact hq
    by_cases h4 : q.val < 163840
    · right; right; right; right; left; refine ⟨⟨q.val - 131072, by omega⟩, by show 131072 + (q.val - 131072) < 262144; omega, ?_⟩
      have e : (⟨131072 + (q.val - 131072), by omega⟩ : Fin 262144) = q := Fin.ext (by show 131072 + (q.val - 131072) = q.val; omega)
      rw [e]; exact hq
    by_cases h5 : q.val < 196608
    · right; right; right; right; right; left; refine ⟨⟨q.val - 163840, by omega⟩, by show 163840 + (q.val - 163840) < 262144; omega, ?_⟩
      have e : (⟨163840 + (q.val - 163840), by omega⟩ : Fin 262144) = q := Fin.ext (by show 163840 + (q.val - 163840) = q.val; omega)
      rw [e]; exact hq
    by_cases h6 : q.val < 229376
    · right; right; right; right; right; right; left; refine ⟨⟨q.val - 196608, by omega⟩, by show 196608 + (q.val - 196608) < 262144; omega, ?_⟩
      have e : (⟨196608 + (q.val - 196608), by omega⟩ : Fin 262144) = q := Fin.ext (by show 196608 + (q.val - 196608) = q.val; omega)
      rw [e]; exact hq
    · right; right; right; right; right; right; right; refine ⟨⟨q.val - 229376, by omega⟩, by show 229376 + (q.val - 229376) < 262144; omega, ?_⟩
      have e : (⟨229376 + (q.val - 229376), by omega⟩ : Fin 262144) = q := Fin.ext (by show 229376 + (q.val - 229376) = q.val; omega)
      rw [e]; exact hq

/-! ## The block of the presence array a grid point leaves -/

/-- Entry (r, k) of what the body leaves in the output block: 1 when some label of row `r` of the input block is the
    class `k`, and 0 otherwise. The six column stores are read back one by one (the store of column `k` is the one
    that holds entry (r, k)); its value is the float of bit `k` of the accumulator, and that bit says whether one of
    the row's 262144 labels is `k`. -/
theorem out_apply (c : Dev nD) (i : grid0.Coords) (arg1 : Memref sig .tc .vmem S8x262144 .i32) (harg1 : arg1.IsWhole)
    (arg2 : Memref sig .tc .vmem S8x6 .f32) (harg2 : arg2.IsWhole) (arg3 : Memref sig .tc .vmem S8x1 .i32) (harg3 : arg3.IsWhole)
    (x0 : Vec Ideal S8x262144 .i32) (r : Fin 8) (kk : Nat) (hk : kk < 6) :
    out0_A_1 (F := Ideal) c i arg1 harg1 arg2 harg2 arg3 harg3 x0 (ix2 r (⟨kk, hk⟩ : Fin 6))
      = flag (∃ q : Fin 262144, x0 (ix2 r q) = BitVec.ofNat 32 kk) := by
  unfold out0_A_1
  rw [View.read_writes_eq_canon _ _ _ (cover0_A_1 c i arg1 harg1 arg2 harg2 arg3 harg3 x0)]
  unfold kernelRun0_A
  dsimp only
  sl_unfold_words
  simp only [View.readCov_cons_toLoadRect, View.readAt_eq_ld, harg1.read_unread]
  interval_cases kk
  · rw [col_miss 0 5 (by decide) (by decide), col_miss 0 4 (by decide) (by decide), col_miss 0 3 (by decide) (by decide), col_miss 0 2 (by decide) (by decide), col_miss 0 1 (by decide) (by decide), col_hit 0 (by decide)]
    show FloatOps.sitofp (F := Ideal) .f32 (IntOp.andi (IntOp.shrsi .vector _ (BitVec.ofNat 32 0)) 1#32) = _
    rw [bit_extract _ 0 (by decide), sitofp_bit]
    exact flag_congr (acc_present x0 _ _ _ _ _ _ _ _ r ⟨0, by decide⟩)
  · rw [col_miss 1 5 (by decide) (by decide), col_miss 1 4 (by decide) (by decide), col_miss 1 3 (by decide) (by decide), col_miss 1 2 (by decide) (by decide), col_hit 1 (by decide)]
    show FloatOps.sitofp (F := Ideal) .f32 (IntOp.andi (IntOp.shrsi .vector _ (BitVec.ofNat 32 1)) 1#32) = _
    rw [bit_extract _ 1 (by decide), sitofp_bit]
    exact flag_congr (acc_present x0 _ _ _ _ _ _ _ _ r ⟨1, by decide⟩)
  · rw [col_miss 2 5 (by decide) (by decide), col_miss 2 4 (by decide) (by decide), col_miss 2 3 (by decide) (by decide), col_hit 2 (by decide)]
    show FloatOps.sitofp (F := Ideal) .f32 (IntOp.andi (IntOp.shrsi .vector _ (BitVec.ofNat 32 2)) 1#32) = _
    rw [bit_extract _ 2 (by decide), sitofp_bit]
    exact flag_congr (acc_present x0 _ _ _ _ _ _ _ _ r ⟨2, by decide⟩)
  · rw [col_miss 3 5 (by decide) (by decide), col_miss 3 4 (by decide) (by decide), col_hit 3 (by decide)]
    show FloatOps.sitofp (F := Ideal) .f32 (IntOp.andi (IntOp.shrsi .vector _ (BitVec.ofNat 32 3)) 1#32) = _
    rw [bit_extract _ 3 (by decide), sitofp_bit]
    exact flag_congr (acc_present x0 _ _ _ _ _ _ _ _ r ⟨3, by decide⟩)
  · rw [col_miss 4 5 (by decide) (by decide), col_hit 4 (by decide)]
    show FloatOps.sitofp (F := Ideal) .f32 (IntOp.andi (IntOp.shrsi .vector _ (BitVec.ofNat 32 4)) 1#32) = _
    rw [bit_extract _ 4 (by decide), sitofp_bit]
    exact flag_congr (acc_present x0 _ _ _ _ _ _ _ _ r ⟨4, by decide⟩)
  · rw [col_hit 5 (by decide)]
    show FloatOps.sitofp (F := Ideal) .f32 (IntOp.andi (IntOp.shrsi .vector _ (BitVec.ofNat 32 5)) 1#32) = _
    rw [bit_extract _ 5 (by decide), sitofp_bit]
    exact flag_congr (acc_present x0 _ _ _ _ _ _ _ _ r ⟨5, by decide⟩)

end Cert.KernelIdeal.Body

end
-- ==== Proof.Loss.lean ====
/-
  The two functions both programs compute.

  `presence x` is the [64, 6] array whose entry (b, k) is 1 when some pixel of image `b` of the label map `x` has the
  class `k`, and 0 otherwise. `loss p t` is the mean binary cross-entropy of the predictions `p` against the
  targets `t`, with the logarithms clamped below at −100: the mean over the 384 entries of
  −(t · max(−100, log p) + (1 − t) · max(−100, log1p(−p))). Both programs end with these same operations on the
  predictions and a presence array, so the loss is carried as one function and never opened.
-/
import Idealize.ShloMosaic.PureOps.Ideal
import Idealize.ShloMosaic.Lib.ValueIdx
import proofs.«175386_j37099927503097_2_alg».proof.Proof.Presence

noncomputable section

namespace Cert.Presence

open Idealize.ShloMosaic Idealize.ShloMosaic.ValueIdx

/-- Image `b` of the label map has a pixel of class `k`: as the real 1 or 0. -/
def presenceAt (x : IVec (⟨3, ![64, 512, 512]⟩ : Shape) 32) (b : Fin 64) (k : Fin 6) : EReal :=
  flag (∃ (p q : Fin 512), x (ix3 b p q) = BitVec.ofNat 32 k.val)

/-- The presence array of a label map. -/
def presence (x : IVec (⟨3, ![64, 512, 512]⟩ : Shape) 32) : FVec Ideal (⟨2, ![64, 6]⟩ : Shape) .f32 :=
  fun j => presenceAt x (j 0) (j 1)

theorem presence_apply (x : IVec (⟨3, ![64, 512, 512]⟩ : Shape) 32) (b : Fin 64) (k : Fin 6) :
    presence x (ix2 b k) = presenceAt x b k := rfl

/-- The mean clamped binary cross-entropy of predictions `p` against targets `t`, as the host operations spell it. -/
def loss (hb : (⟨0, ![]⟩ : Shape).BroadcastsInDim (⟨2, ![64, 6]⟩ : Shape) (![] : Fin 0 → Fin 2))
    (hr : (⟨2, ![64, 6]⟩ : Shape).ReducesTo [0, 1] (⟨0, ![]⟩ : Shape)) (hu : 0 < (⟨0, ![]⟩ : Shape).numel)
    (p t : FVec Ideal (⟨2, ![64, 6]⟩ : Shape) .f32) : FVec Ideal (⟨0, ![]⟩ : Shape) .f32 :=
  Host.divf (F := Ideal)
    (Host.reduceAdd (F := Ideal)
      (Host.negf (F := Ideal)
        (addf
          (mulf t
            (maximumf (broadcastInDim (⟨2, ![64, 6]⟩ : Shape) ![] hb (id (constant (F := Ideal) (⟨0, ![]⟩ : Shape) .f32 0xC2C80000#32)))
              (Host.log (F := Ideal) p)))
          (mulf (subf (broadcastInDim (⟨2, ![64, 6]⟩ : Shape) ![] hb (constant (F := Ideal) (⟨0, ![]⟩ : Shape) .f32 0x3F800000#32)) t)
            (maximumf (broadcastInDim (⟨2, ![64, 6]⟩ : Shape) ![] hb (id (constant (F := Ideal) (⟨0, ![]⟩ : Shape) .f32 0xC2C80000#32)))
              (Host.log1p (F := Ideal) (Host.negf (F := Ideal) p))))))
      (constant (F := Ideal) (⟨0, ![]⟩ : Shape) .f32 0x00000000#32) hr hu)
    (constant (F := Ideal) (⟨0, ![]⟩ : Shape) .f32 0x43C00000#32)

end Cert.Presence

end
-- ==== Proof.KernelValue.lean ====
/-
  The kernel's program read as one function of its arguments.

  Before the region the label map [64, 512, 512] is flattened to [64, 262144] (pixel (p, q) of an image at column
  512·p + q). The region walks the flattened map in eight blocks of eight images; grid point `t` leaves, in block `t`
  of the [64, 6] output, entry (r, k) = 1 when image 8·t + r has a pixel of class `k` and 0 otherwise (the body's
  value at the point's input block, whose row `r` is row 8·t + r of the flattened map). The eight blocks tile the
  output, so the region's array ends as the presence array of the label map. After the region the host computes
  the loss of the predictions against that array.
-/
import proofs.«175386_j37099927503097_2_alg».proof.Proof.Gen.KernelIdeal.Frame
import proofs.«175386_j37099927503097_2_alg».proof.Proof.KernelBody
import proofs.«175386_j37099927503097_2_alg».proof.Proof.Loss
import Idealize.ShloMosaic.Lib.Pipeline.Value
import Idealize.ShloMosaic.Lib.StableHlo.Run

set_option maxRecDepth 16384

noncomputable section

namespace Cert.KernelIdeal.KValue

open Cert.KernelIdeal Cert.KernelIdeal.Gen Idealize.ShloMosaic Idealize.ShloMosaic.TcCoe Idealize.SL.Sem Idealize.ShloMosaic.StableHlo
open Idealize.ShloMosaic.ValueIdx Cert.Presence Cert.KernelIdeal.Body
open Idealize.ShloMosaic.Pipeline (Dat Cfg Window)

/-! ## The flattened label map -/

/-- The flattened map at (b, 512·p + q) is the map at (b, p, q). -/
theorem flat_apply (x : IVec S64x512x512 32) (h : S64x512x512.ShapeCasts S64x262144) (b : Fin 64) (p q : Fin 512)
    (hk : 512 * p.val + q.val < 262144) :
    shapeCast S64x262144 x h (ix2 b (⟨512 * p.val + q.val, hk⟩ : Fin 262144)) = x (ix3 b p q) := by
  refine shapeCast_apply x h _ (ix3 b p q) ?_
  rw [Shape.rowMajor_val_three, Shape.rowMajor_val_two]
  show (b.val * 512 + p.val) * 512 + q.val = b.val * 262144 + (512 * p.val + q.val)
  omega

/-- An image of the flattened map has a label `w` exactly when the image has. -/
theorem flat_exists (x : IVec S64x512x512 32) (h : S64x512x512.ShapeCasts S64x262144) (b : Fin 64) (w : BitVec 32) :
    (∃ k : Fin 262144, shapeCast S64x262144 x h (ix2 b k) = w) ↔ ∃ (p q : Fin 512), x (ix3 b p q) = w := by
  constructor
  · rintro ⟨k, hk⟩
    have hk262 : k.val < 262144 := k.isLt
    refine ⟨⟨k.val / 512, by omega⟩, ⟨k.val % 512, by omega⟩, ?_⟩
    have hlt : 512 * (k.val / 512) + k.val % 512 < 262144 := by omega
    rw [← flat_apply x h b ⟨k.val / 512, by omega⟩ ⟨k.val % 512, by omega⟩ hlt]
    have e : (⟨512 * (k.val / 512) + k.val % 512, hlt⟩ : Fin 262144) = k := Fin.ext (by show 512 * (k.val / 512) + k.val % 512 = k.val; omega)
    rw [e]; exact hk
  · rintro ⟨p, q, hpq⟩
    have hp : p.val < 512 := p.isLt
    have hq : q.val < 512 := q.isLt
    exact ⟨⟨512 * p.val + q.val, by omega⟩, (flat_apply x h b p q (by omega)).trans hpq⟩

variable (m : (ℓ : Loc nD τ sig) → Buf (Elt Ideal) ℓ) (ρ : Dev nD → PrngReg)

/-- The region's input array is the flattened label map. -/
theorem V_v0 (c : Dev nD) (h : S64x512x512.ShapeCasts S64x262144) :
    (V m c main_v0 : S64x262144.Idx → Elt Ideal .i32) = shapeCast S64x262144 (m ((c : Thread nD τ).loc main_arg1)) h := by
  show StableHlo.after hostOps0 (fun b => m (c, b)) (Proc.devRef .tc main_v0) = _
  after_results
  rfl

/-! ## The windows' blocks -/

/-- The printed index maps over the grid: point `t` takes block row `t`, block column 0, of both windows. -/
theorem idx_facts : ∀ t : Fin cfg0.N, win0_0.index t (0 : Fin 2) = t.val ∧ win0_0.index t (1 : Fin 2) = 0
    ∧ win0_1.index t (0 : Fin 2) = t.val ∧ win0_1.index t (1 : Fin 2) = 0 :=
  (by decide +kernel : ∀ t : Fin grid0.N, _)

/-- Row `r` of the input block at point `t` is row 8·t + r of the flattened map. -/
theorem iblk_apply (c : Dev nD) (t : Fin cfg0.N) (r : Fin 8) (q : Fin 262144) (hb : 8 * t.val + r.val < 64) :
    (iblk m c 0 t : Vec Ideal S8x262144 .i32) (ix2 r q) = (V m c main_v0 : S64x262144.Idx → Elt Ideal .i32) (ix2 (⟨8 * t.val + r.val, hb⟩ : Fin 64) q) := by
  obtain ⟨e0, e1, -, -⟩ := idx_facts t
  unfold iblk
  rw [View.read_apply]
  show V m c main_v0 _ = V m c main_v0 _
  refine congrArg (V m c main_v0) ?_
  funext a
  apply Fin.ext
  match a with
  | ⟨0, _⟩ => show win0_0.index t (0 : Fin 2) * 8 + 1 * r.val = 8 * t.val + r.val; rw [e0]; omega
  | ⟨1, _⟩ => show win0_0.index t (1 : Fin 2) * 262144 + 1 * q.val = q.val; rw [e1]; omega

/-- What point `t` leaves at (r, k) of its output block: the presence of class `k` in image 8·t + r. -/
theorem block_apply (c : Dev nD) (t : Fin cfg0.N) (r : Fin 8) (kk : Nat) (hk : kk < 6) (hb : 8 * t.val + r.val < 64)
    (h : S64x512x512.ShapeCasts S64x262144) :
    (outsAt0 m c t : Vec Ideal S8x6 .f32) (ix2 r (⟨kk, hk⟩ : Fin 6))
      = presence (m ((c : Thread nD τ).loc main_arg1)) (ix2 (⟨8 * t.val + r.val, hb⟩ : Fin 64) (⟨kk, hk⟩ : Fin 6)) := by
  unfold outsAt0
  refine (out_apply c (grid0.coords t) (ms0_0 t) (hs0_0 t) (ms0_1 t) (hs0_1 t) scM0_0 (Memref.isWhole_whole _) (iblk m c 0 t) r kk hk).trans ?_
  rw [presence_apply]
  unfold presenceAt
  refine flag_congr ?_
  refine (exists_congr fun q => by rw [iblk_apply m c t r q hb]).trans ?_
  rw [V_v0 m c h]
  exact flat_exists _ h _ _

/-- What point `t` writes back is block `t` of the presence array. -/
theorem flushed_eq (c : Dev nD) (t : Fin cfg0.N) (h : S64x512x512.ShapeCasts S64x262144) :
    (dats m 0 c).flushed 1 t = ((cfg0.win 1).blk t).view.read (Elt Ideal) (presence (m ((c : Thread nD τ).loc main_arg1))) := by
  show (cfg0.win 1).cut (grid0.coords t) ((dats m 0 c).after 1 t) = _
  rw [after0_1]
  obtain ⟨-, -, e0, e1⟩ := idx_facts t
  have hN : t.val < 8 := Nat.lt_of_lt_of_eq t.isLt N_0
  funext j
  have hj0 : (j 0).val < 8 := (j 0).isLt
  have hj1 : (j 1).val < 6 := (j 1).isLt
  have hb : 8 * t.val + (j 0).val < 64 := by omega
  show (outsAt0 m c t : Vec Ideal S8x6 .f32) j = presence (m ((c : Thread nD τ).loc main_arg1)) (((cfg0.win 1).blk t).view.emb j)
  have ej : j = ix2 (⟨(j 0).val, hj0⟩ : Fin 8) (⟨(j 1).val, hj1⟩ : Fin 6) := by
    funext a; match a with | ⟨0, _⟩ => rfl | ⟨1, _⟩ => rfl
  rw [ej, block_apply m c t ⟨(j 0).val, hj0⟩ (j 1).val hj1 hb h]
  refine congrArg (presence _) ?_
  funext a
  apply Fin.ext
  match a with
  | ⟨0, _⟩ => show 8 * t.val + (j 0).val = win0_1.index t (0 : Fin 2) * 8 + 1 * (j 0).val; rw [e0]; omega
  | ⟨1, _⟩ => show (j 1).val = win0_1.index t (1 : Fin 2) * 6 + 1 * (j 1).val; rw [e1]; omega

/-- An index of the output array is in point `t`'s block when each coordinate is in the block's range. -/
theorem mem_blk (t : Fin cfg0.N) (i : S64x6.Idx) :
    i ∈ ((cfg0.win 1).blk t).view.set ↔ ∀ a : Fin 2, win0_1.index t a * S8x6.size a ≤ (i a).val ∧ (i a).val < win0_1.index t a * S8x6.size a + S8x6.size a := by
  show i ∈ ((View.whole main_v1).slice (win0_1.rect t)).set ↔ _
  rw [View.set_slice_whole, Rect.mem_set_unit]
  exact Iff.rfl

/-- The region's output array ends as the presence array of the label map: the eight blocks tile it. -/
theorem final (c : Dev nD) (h : S64x512x512.ShapeCasts S64x262144) :
    (dats m 0 c).arrAt 1 cfg0.N = presence (m ((c : Thread nD τ).loc main_arg1)) :=
  (dats m 0 c).arrAt_eq_of_cover 1 (presence (m ((c : Thread nD τ).loc main_arg1))) (fun t _ => flushed_eq m c t h) fun i => by
    have hi0 : (i 0).val < 64 := (i 0).isLt
    have hi1 : (i 1).val < 6 := (i 1).isLt
    have hN : cfg0.N = 8 := N_0
    let t : Fin cfg0.N := ⟨(i 0).val / 8, by rw [hN]; omega⟩
    obtain ⟨-, -, e0, e1⟩ := idx_facts t
    refine ⟨t, flush0_1 t, ?_⟩
    rw [mem_blk]
    intro a
    match a with
    | ⟨0, _⟩ => show win0_1.index t (0 : Fin 2) * 8 ≤ (i 0).val ∧ (i 0).val < win0_1.index t (0 : Fin 2) * 8 + 8
                rw [e0]; show (i 0).val / 8 * 8 ≤ (i 0).val ∧ (i 0).val < (i 0).val / 8 * 8 + 8; omega
    | ⟨1, _⟩ => show win0_1.index t (1 : Fin 2) * 6 ≤ (i 1).val ∧ (i 1).val < win0_1.index t (1 : Fin 2) * 6 + 6
                rw [e1]; omega

/-! ## The host operations after the region -/

/-- The program's result: the loss of the predictions against the presence array. -/
theorem tail_value (c : Dev nD) (h : S64x512x512.ShapeCasts S64x262144)
    (hb : S_.BroadcastsInDim S64x6 (![] : Fin 0 → Fin 2)) (hr : S64x6.ReducesTo [0, 1] S_) (hu : 0 < S_.numel) :
    Pipeline.afterTail₀ cfgs (dats m) 0 (V0 m) [hostOps1, hostOps1_1, hostOps1_2, hostOps1_3, hostOps1_4] c main_v14
      = loss hb hr hu (m ((c : Thread nD τ).loc main_arg0)) (presence (m ((c : Thread nD τ).loc main_arg1))) := by
  unfold Pipeline.afterTail₀
  simp only [hostOps1, hostOps1_1, hostOps1_2, hostOps1_3, hostOps1_4, List.flatten_cons, List.flatten_nil, List.append_nil,
    List.cons_append, List.nil_append]
  after_results
  have e1 : Pipeline.withArrays spec0 c (V0 m c) (fun w => (dats m 0 c).arrAt w cfg0.N) (Proc.devRef .tc main_v1)
      = (dats m 0 c).arrAt 1 cfg0.N := Pipeline.withArrays_arr spec0 launch0.win.arr_inj c _ _ 1
  have e0 : Pipeline.withArrays spec0 c (V0 m c) (fun w => (dats m 0 c).arrAt w cfg0.N) (Proc.devRef .tc main_arg0)
      = m ((c : Thread nD τ).loc main_arg0) :=
    (Pipeline.withArrays_of_ne _ c (V0 m c) _ main_arg0 (by exact (by decide : ∀ w, Pipeline.arrRef spec0 w ≠ main_arg0))).trans (V_main_arg0 m c)
  rw [e1, e0, final m c h]
  rfl

/-! ## The run, read -/

/-- Every run of the kernel's program ends with the loss of the predictions against the presence array of the label
    map in its result, and its arguments unchanged. -/
theorem run (h : S64x512x512.ShapeCasts S64x262144)
    (hb : S_.BroadcastsInDim S64x6 (![] : Fin 0 → Fin 2)) (hr : S64x6.ReducesTo [0, 1] S_) (hu : 0 < S_.numel) :
    θ_run defs (onTc (τ := τ) (main (F := Ideal))) ⟨m, fun _ => 0, ρ⟩ fun r => ∀ c : Dev nD,
      r.2.mem ((c.tc : Thread nD τ).loc main_v14)
          = loss hb hr hu (m ((c.tc : Thread nD τ).loc main_arg0)) (presence (m ((c.tc : Thread nD τ).loc main_arg1)))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ hpost c =>
      ⟨((hpost c).2 main_v14 (Pipeline.mem_restRefs_of main_v14 (by decide) (by decide))).trans (tail_value m c h hb hr hu),
       ((hpost c).2 main_arg0 (Pipeline.mem_restRefs_of main_arg0 (by decide) (by decide))).trans (W_main_arg0 m (dats m) c),
       ((hpost c).2 main_arg1 (Pipeline.mem_restRefs_of main_arg1 (by decide) (by decide))).trans (W_main_arg1 m (dats m) c)⟩)
    (run_main m ρ)

end Cert.KernelIdeal.KValue

end
-- ==== Proof.RefPresence.lean ====
/-
  The reference's presence array, index by index.

  For each class `k` the reference compares every label with `k`, ORs the one-bit results over the two pixel
  axes of each image (`or_fold_eq_one`: an OR of one-bit words from 0 is 1 exactly when one of them is 1), and
  places the six columns side by side before converting to floats. So entry (b, k) of its array is 1 when some
  pixel of image `b` has the class `k`, and 0 otherwise: `presence`.
-/
import Idealize.ShloMosaic.Lib.Pipeline.Value
import Idealize.ShloMosaic.Lib.ValueIdx
import Idealize.ShloMosaic.PureOps.Reduce
import proofs.«175386_j37099927503097_2_alg».proof.Proof.Loss

noncomputable section

namespace Cert.RefPresence

open Idealize.ShloMosaic Idealize.ShloMosaic.ValueIdx Cert.Presence

abbrev S0 : Shape := ⟨0, ![]⟩
abbrev S64 : Shape := ⟨1, ![64]⟩
abbrev S64x1 : Shape := ⟨2, ![64, 1]⟩
abbrev S64x6 : Shape := ⟨2, ![64, 6]⟩
abbrev S64x512x512 : Shape := ⟨3, ![64, 512, 512]⟩

/-- An OR of two one-bit words is 1 exactly when one of them is. -/
theorem ori_eq_one_iff (a b : BitVec 1) : IntOp.ori a b = 1#1 ↔ a = 1#1 ∨ b = 1#1 := by
  rcases BitVec.eq_zero_or_eq_one a with rfl | rfl <;> rcases BitVec.eq_zero_or_eq_one b with rfl | rfl <;> decide

/-- An OR of one-bit words over a finite set, from 0, is 1 exactly when one of them is 1. -/
theorem or_fold_eq_one {ι : Type} [DecidableEq ι] (S : Finset ι) (f : ι → BitVec 1) :
    S.fold IntOp.ori 0#1 f = 1#1 ↔ ∃ i ∈ S, f i = 1#1 := by
  induction S using Finset.induction_on with
  | empty => simp
  | insert a S ha ih =>
    rw [Finset.fold_insert ha, ori_eq_one_iff, ih]
    constructor
    · rintro (h | ⟨i, hi, h⟩)
      · exact ⟨a, Finset.mem_insert_self a S, h⟩
      · exact ⟨i, Finset.mem_insert_of_mem hi, h⟩
    · rintro ⟨i, hi, h⟩
      rcases Finset.mem_insert.mp hi with rfl | hi'
      · exact Or.inl h
      · exact Or.inr ⟨i, hi', h⟩

/-- The column of class `k`: per image, whether some pixel has the class. -/
def classCol (hb0 : S0.BroadcastsInDim S64x512x512 (![] : Fin 0 → Fin 3)) (hr : S64x512x512.ReducesTo [1, 2] S64) (hu : 0 < S0.numel)
    (hb1 : S64.BroadcastsInDim S64x1 (![0] : Fin 1 → Fin 2)) (x : IVec S64x512x512 32) (k : BitVec 32) : IVec S64x1 1 :=
  broadcastInDim S64x1 ![0] hb1
    (Host.reduce IntOp.ori (cmpi .eq x (broadcastInDim S64x512x512 ![] hb0 (constantI S0 32 k))) (constantI S0 1 0#1) hr hu)

theorem classCol_apply (hb0 : S0.BroadcastsInDim S64x512x512 (![] : Fin 0 → Fin 3)) (hr : S64x512x512.ReducesTo [1, 2] S64) (hu : 0 < S0.numel)
    (hb1 : S64.BroadcastsInDim S64x1 (![0] : Fin 1 → Fin 2)) (x : IVec S64x512x512 32) (k : BitVec 32) (b : Fin 64) :
    classCol hb0 hr hu hb1 x k (ix2 b (0 : Fin 1)) = 1#1 ↔ ∃ (p q : Fin 512), x (ix3 b p q) = k := by
  unfold classCol
  rw [broadcastInDim_apply ![0] hb1 _ (ix2 b (0 : Fin 1)) (ix1 b) (by intro a; fin_cases a; simp [ix2, ix1])]
  rw [Host.reduce_eq_fold]
  show (Finset.univ.filter fun i => hr.drop i = ix1 b).fold IntOp.ori 0#1 _ = 1#1 ↔ _
  rw [or_fold_eq_one]
  constructor
  · rintro ⟨i, hi, h⟩
    obtain ⟨b', p, q, rfl⟩ : ∃ (b' : Fin 64) (p q : Fin 512), i = ix3 b' p q := ⟨i 0, i 1, i 2, eq_ix3 i⟩
    have hd : hr.drop (ix3 b' p q) = ix1 b := (Finset.mem_filter.mp hi).2
    have h0 : ((hr.drop (ix3 b' p q)) 0 : Nat) = (ix3 b' p q) 0 := Shape.ReducesTo.drop_apply_val_of_eq hr (ix3 b' p q) 0 0
    rw [hd] at h0
    have hb : b' = b := Fin.ext h0.symm
    subst hb
    refine ⟨p, q, ?_⟩
    have h' : IntOp.cmpi .eq (x (ix3 b' p q)) (broadcastInDim S64x512x512 ![] hb0 (constantI S0 32 k) (ix3 b' p q)) = 1#1 := h
    rw [broadcastInDim_apply ![] hb0 _ (ix3 b' p q) ix0 (fun a => a.elim0)] at h'
    exact (cmpi_eq_one_iff _ _).mp h'
  · rintro ⟨p, q, h⟩
    refine ⟨ix3 b p q, Finset.mem_filter.mpr ⟨Finset.mem_univ _, ?_⟩, ?_⟩
    · funext a
      apply Fin.ext
      fin_cases a
      exact Shape.ReducesTo.drop_apply_val_of_eq hr (ix3 b p q) 0 0
    · show IntOp.cmpi .eq (x (ix3 b p q)) (broadcastInDim S64x512x512 ![] hb0 (constantI S0 32 k) (ix3 b p q)) = 1#1
      rw [broadcastInDim_apply ![] hb0 _ (ix3 b p q) ix0 (fun a => a.elim0)]
      exact (cmpi_eq_one_iff _ _).mpr h

/-- The six class columns. -/
def cols (hb0 : S0.BroadcastsInDim S64x512x512 (![] : Fin 0 → Fin 3)) (hr : S64x512x512.ReducesTo [1, 2] S64) (hu : 0 < S0.numel)
    (hb1 : S64.BroadcastsInDim S64x1 (![0] : Fin 1 → Fin 2)) (x : IVec S64x512x512 32) : List ((s : Shape) × (s.Idx → BitVec 1)) :=
  [⟨S64x1, classCol hb0 hr hu hb1 x 0#32⟩, ⟨S64x1, classCol hb0 hr hu hb1 x 1#32⟩, ⟨S64x1, classCol hb0 hr hu hb1 x 2#32⟩,
   ⟨S64x1, classCol hb0 hr hu hb1 x 3#32⟩, ⟨S64x1, classCol hb0 hr hu hb1 x 4#32⟩, ⟨S64x1, classCol hb0 hr hu hb1 x 5#32⟩]

/-- The columns side by side, read at (b, k): column `k` at row `b`. -/
theorem cols_apply (hb0 : S0.BroadcastsInDim S64x512x512 (![] : Fin 0 → Fin 3)) (hr : S64x512x512.ReducesTo [1, 2] S64) (hu : 0 < S0.numel)
    (hb1 : S64.BroadcastsInDim S64x1 (![0] : Fin 1 → Fin 2))
    (x : IVec S64x512x512 32) (hc : Shape.Concatenates ((cols hb0 hr hu hb1 x).map (·.1)) S64x6 1) (b : Fin 64) (kk : Nat) (hk : kk < 6) :
    concatenate S64x6 1 (cols hb0 hr hu hb1 x) hc (ix2 b (⟨kk, hk⟩ : Fin 6))
      = classCol hb0 hr hu hb1 x (BitVec.ofNat 32 kk) (ix2 b (0 : Fin 1)) := by
  interval_cases kk
  · exact concatenate_apply_piece (t := S64x6) (1 : Fin 2) (cols hb0 hr hu hb1 x) hc _ 0 (by show (0 : Nat) < 6; decide) S64x1 _ rfl rfl 0 rfl
      (ix2 b (0 : Fin 1)) (fun a ha => match a, ha with | ⟨0, _⟩, _ => rfl | ⟨1, _⟩, ha => absurd rfl ha) rfl
  · exact concatenate_apply_piece (t := S64x6) (1 : Fin 2) (cols hb0 hr hu hb1 x) hc _ 1 (by show (1 : Nat) < 6; decide) S64x1 _ rfl rfl 1 rfl
      (ix2 b (0 : Fin 1)) (fun a ha => match a, ha with | ⟨0, _⟩, _ => rfl | ⟨1, _⟩, ha => absurd rfl ha) rfl
  · exact concatenate_apply_piece (t := S64x6) (1 : Fin 2) (cols hb0 hr hu hb1 x) hc _ 2 (by show (2 : Nat) < 6; decide) S64x1 _ rfl rfl 2 rfl
      (ix2 b (0 : Fin 1)) (fun a ha => match a, ha with | ⟨0, _⟩, _ => rfl | ⟨1, _⟩, ha => absurd rfl ha) rfl
  · exact concatenate_apply_piece (t := S64x6) (1 : Fin 2) (cols hb0 hr hu hb1 x) hc _ 3 (by show (3 : Nat) < 6; decide) S64x1 _ rfl rfl 3 rfl
      (ix2 b (0 : Fin 1)) (fun a ha => match a, ha with | ⟨0, _⟩, _ => rfl | ⟨1, _⟩, ha => absurd rfl ha) rfl
  · exact concatenate_apply_piece (t := S64x6) (1 : Fin 2) (cols hb0 hr hu hb1 x) hc _ 4 (by show (4 : Nat) < 6; decide) S64x1 _ rfl rfl 4 rfl
      (ix2 b (0 : Fin 1)) (fun a ha => match a, ha with | ⟨0, _⟩, _ => rfl | ⟨1, _⟩, ha => absurd rfl ha) rfl
  · exact concatenate_apply_piece (t := S64x6) (1 : Fin 2) (cols hb0 hr hu hb1 x) hc _ 5 (by show (5 : Nat) < 6; decide) S64x1 _ rfl rfl 5 rfl
      (ix2 b (0 : Fin 1)) (fun a ha => match a, ha with | ⟨0, _⟩, _ => rfl | ⟨1, _⟩, ha => absurd rfl ha) rfl

/-- The reference's presence array: the six class columns side by side, as floats. -/
theorem ref_presence (hb0 : S0.BroadcastsInDim S64x512x512 (![] : Fin 0 → Fin 3)) (hr : S64x512x512.ReducesTo [1, 2] S64) (hu : 0 < S0.numel)
    (hb1 : S64.BroadcastsInDim S64x1 (![0] : Fin 1 → Fin 2)) (x : IVec S64x512x512 32)
    (hc : Shape.Concatenates ((cols hb0 hr hu hb1 x).map (·.1)) S64x6 1) :
    uitofp (F := Ideal) .f32 (concatenate S64x6 1 (cols hb0 hr hu hb1 x) hc) = presence x := by
  funext j
  obtain ⟨b, k, rfl⟩ : ∃ (b : Fin 64) (k : Fin 6), j = ix2 b k := ⟨j 0, j 1, eq_ix2 j⟩
  obtain ⟨kk, hk⟩ := k
  rw [presence_apply]
  show FloatOps.uitofp (F := Ideal) .f32 (concatenate S64x6 1 (cols hb0 hr hu hb1 x) hc (ix2 b (⟨kk, hk⟩ : Fin 6))) = _
  rw [cols_apply hb0 hr hu hb1 x hc b kk hk, uitofp_bit]
  unfold presenceAt
  exact flag_congr (classCol_apply hb0 hr hu hb1 x _ b)

end Cert.RefPresence

end
-- ==== Proof.lean ====
/-
  The class-presence loss: the kernel's program and the reference compute the same number.

  Both programs take predictions [64, 6] and a label map [64, 512, 512] and return the mean clamped binary
  cross-entropy (`loss`) of the predictions against the presence array of the label map — entry (b, k) is 1 when
  image `b` has a pixel of class `k`, else 0 (`presence`). The reference finds each entry by comparing every label
  with `k` and OR-ing the results over the image. The kernel marks each label by a one-hot word, ORs the marks of
  each image together by repeated halving, and reads bit `k` of the result; a bit of an OR is the OR of the bits,
  and bit `k` of a mark is set exactly when the label is `k`, so it finds the same entry. The last operations (the
  logarithms, the clamps, the products, the sum and the division by 384) are the same text in both programs and
  are applied to equal arrays. No arithmetic law of the extended reals is needed, and the precondition is not used.

  The three frames are the generated frame runs (the reference's is its run with the result dropped); the
  idealization rewrote nothing, so `preserves` is trivial.
-/
import proofs.«175386_j37099927503097_2_alg».proof.Defs
import proofs.«175386_j37099927503097_2_alg».proof.Proof.Gen.Kernel
import proofs.«175386_j37099927503097_2_alg».proof.Proof.Gen.Kernel.Frame
import proofs.«175386_j37099927503097_2_alg».proof.Proof.Gen.KernelIdeal
import proofs.«175386_j37099927503097_2_alg».proof.Proof.Gen.KernelIdeal.Frame
import proofs.«175386_j37099927503097_2_alg».proof.Proof.Gen.ReferenceIdeal
import proofs.«175386_j37099927503097_2_alg».proof.Proof.Gen.Pre_finite_inputs
import proofs.«175386_j37099927503097_2_alg».proof.Proof.KernelValue
import proofs.«175386_j37099927503097_2_alg».proof.Proof.RefRun
import proofs.«175386_j37099927503097_2_alg».proof.Proof.RefPresence
import Idealize.ShloMosaic.Adequacy
import Idealize.ShloMosaic.Init

noncomputable section

namespace Cert.Proof

open Idealize.ShloMosaic Idealize.SL.Sem Cert.Presence

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.RunP.run (F := Ideal) m ρ)

theorem preserves : Cert.preserves_Kernel_KernelIdeal := trivial

/-- At the ideal instance both programs end with the loss of the predictions against the presence array of the
    label map: the kernel's run read as that function, the reference's run's term shown to be it. -/
theorem algebraic : Cert.algebraic_KernelIdeal_ReferenceIdeal := by
  intro m ρ m' ρ' _ hagree
  refine ⟨_, Cert.KernelIdeal.KValue.run m ρ Cert.KernelIdeal.Facts₀.shapeCasts_S64x512x512_S64x262144
    Cert.KernelIdeal.Facts₀.bcast_S_S64x6 Cert.KernelIdeal.Facts₀.reducesTo_S64x6_S_d0_1 Cert.KernelIdeal.Facts₀.h_S_, ?_⟩
  refine (θ_run Cert.ReferenceIdeal.defs _ _).mono (fun _ hpost c => ⟨(hpost c).1.trans ?_, (hpost c).2⟩)
    (Cert.ReferenceIdeal.RunP.run (F := Ideal) m' ρ')
  rw [(hagree c).1, (hagree c).2]
  exact congrArg
    (loss Cert.KernelIdeal.Facts₀.bcast_S_S64x6 Cert.KernelIdeal.Facts₀.reducesTo_S64x6_S_d0_1 Cert.KernelIdeal.Facts₀.h_S_
      (m ((c.tc : Thread Cert.KernelIdeal.nD Cert.KernelIdeal.τ).loc Cert.KernelIdeal.main_arg0)))
    (Cert.RefPresence.ref_presence Cert.ReferenceIdeal.Facts₀.bcast_S_S64x512x512
      Cert.ReferenceIdeal.Facts₀.reducesTo_S64x512x512_S64_d1_2 Cert.ReferenceIdeal.Facts₀.h_S_
      Cert.ReferenceIdeal.Facts₀.bcast_S64_S64x1_0
      (m ((c.tc : Thread Cert.KernelIdeal.nD Cert.KernelIdeal.τ).loc Cert.KernelIdeal.main_arg1))
      Cert.ReferenceIdeal.Facts₀.concatenates_S64x1_S64x1_S64x1_S64x1_S64x1_S64x1_S64x6_d1)

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
